-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S4096x4096 : Shape := ⟨2, ![4096, 4096]⟩
abbrev S4096 : Shape := ⟨1, ![4096]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S1024x4096 .f32) (main_arg1 : FVec F S4096x4096 .f32) (main_arg2 : FVec F S4096 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S1024x4096 : Shape := ⟨2, ![1024, 4096]⟩
abbrev S4096x4096 : Shape := ⟨2, ![4096, 4096]⟩
abbrev S4096 : Shape := ⟨1, ![4096]⟩
abbrev S1x4096 : Shape := ⟨2, ![1, 4096]⟩
abbrev S512x4096 : Shape := ⟨2, ![512, 4096]⟩
abbrev S1024x2048 : Shape := ⟨2, ![1024, 2048]⟩
abbrev S1x1024 : Shape := ⟨2, ![1, 1024]⟩
abbrev S512x1024 : Shape := ⟨2, ![512, 1024]⟩
abbrev S512x2048 : Shape := ⟨2, ![512, 2048]⟩

abbrev nBuf : Space → Nat
  | .hbm => 5
  | .vmem => 8
  | .smem => 0
  | _ => 0

abbrev bufTy : (tb : Table) → Fin (tcTables nBuf tb) → BufTy
  | .hbm, ⟨0, _⟩ => ⟨S1024x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S1024x4096, .f32⟩
  | .local _ .vmem, ⟨0, _⟩ => ⟨S512x4096, .f32⟩
  | .local _ .vmem, ⟨1, _⟩ => ⟨S1024x2048, .f32⟩
  | .local _ .vmem, ⟨2, _⟩ => ⟨S1024x2048, .f32⟩
  | .local _ .vmem, ⟨3, _⟩ => ⟨S1x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 4, 2], ![false, false, false]⟩

def k0_mult1 (i : grid0.Coords) : BitVec 32 :=
  let arg2 : BitVec 32 := BitVec.ofNat 32 (i 2).val
  let c2048_i32 : BitVec 32 := 2048#32
  let v3 : BitVec 32 := Scalar.muli arg2 c2048_i32
  v3
def k0_off1 (i : grid0.Coords) : Fin 2 → Nat :=
  let c0 : Index := 0#32
  let arg2 : BitVec 32 := BitVec.ofNat 32 (i 2).val
  let c2048_i32 : BitVec 32 := 2048#32
  let v3 : BitVec 32 := Scalar.muli arg2 c2048_i32
  let v4 : BitVec 32 := v3
  let v5 : Index := Scalar.indexCast v4
  ![0, v5.toNat]
def k0_cond2 (i : grid0.Coords) : BitVec 1 :=
  let arg2 : BitVec 32 := BitVec.ofNat 32 (i 2).val
  let c1_i32 : BitVec 32 := 1#32
  let v20 : BitVec 1 := Scalar.cmpi .eq arg2 c1_i32
  let v21 : BitVec 32 := Scalar.extui v20
  let c0_i32_8 : BitVec 32 := 0#32
  let v22 : BitVec 1 := Scalar.cmpi .ne v21 c0_i32_8
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  h_S512x2048 : 0 < S512x2048.numel
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  natLt_1_32 : 1 < 32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x2048_S1024x2048_S512x1024_1_1_0_0_n_n_wf : DotDims.WF S512x2048 S1024x2048 S512x1024 [1] [1] [0] [0] [] []
  hrank0 : 0 < grid0.rank
  k0_mult1_dvd : ∀ i : grid0.Coords, 128 ∣ (k0_mult1 i).toNat
  k0_off1_inb : ∀ i : grid0.Coords, ∀ a, (k0_off1 i) a + S512x2048.size a ≤ S512x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S1024x4096.size a
  hwx0_0 : ∀ i : grid0.Coords, EltTy.bits .f32 = 32 ∨ (Rect.block (s := S1024x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x4096.size a
  hwx0_1 : ∀ i : grid0.Coords, EltTy.bits .f32 = 32 ∨ (Rect.block (s := S4096x4096) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S1024x4096.size a
  hwx0_3 : ∀ i : grid0.Coords, EltTy.bits .f32 = 32 ∨ (Rect.block (s := S1024x4096) S512x1024.size (cc0_transform_3 i) (hinb0_3 i)).WholeWords (EltTy.packing .f32)

variable [Facts₀]

def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf

abbrev win0_0 : Pipeline.Window sig grid0 :=
  Pipeline.Window.ofSpec (Memref.whole main_arg0) S512x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1024x4096 : Shape := ⟨2, ![1024, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .i1⟩
  | .hbm, ⟨6, _⟩ => ⟨S4096x4096, .f32⟩
  | .hbm, ⟨7, _⟩ => ⟨S1024x4096, .f32⟩
  | .hbm, ⟨8, _⟩ => ⟨S_, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S4096, .f32⟩
  | .hbm, ⟨14, _⟩ => ⟨S4096, .f32⟩
  | .hbm, ⟨15, _⟩ => ⟨S1x4096, .f32⟩
  | .hbm, ⟨16, _⟩ => ⟨S1024x4096, .f32⟩
  | .hbm, ⟨17, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  dot_S1024x4096_S4096x4096_S1024x4096_1_1_0_0_n_n_wf : DotDims.WF S1024x4096 S4096x4096 S1024x4096 [1] [1] [0] [0] [] []

variable [Facts₀]

def dot_S1024x4096_S4096x4096_S1024x4096_1_1_0_0_n_n : DotDims S1024x4096 S4096x4096 S1024x4096 where
  lhsContracting := [1]
  rhsContracting := [1]
  lhsNonContracting := [0]
  rhsNonContracting := [0]
  lhsBatch := []
  rhsBatch := []
  wf := dot_S1024x4096_S4096x4096_S1024x4096_1_1_0_0_n_n_wf

class Facts : Prop extends Facts₀ where

variable [Facts]
-- ==== Proof.Pieces.lean ====
/-
  What one run of the kernel body leaves behind, as values.

  The body keeps a 512 × 1024 accumulator between grid points. At a point whose reduction coordinate is 0 it stores
  the zero block into the accumulator, reads it back, and stores "what was read + the product of this point's slab
  of the activation rows with this point's binarized weight block". At a point whose reduction coordinate is 1 it
  reads what the point before left, stores "that + this point's product", reads the sum back and stores
  "sum × the broadcast effective scale" into the output block. Each of these is one covering store at offset zero,
  so what the buffer holds afterwards is that store's value.
-/
import proofs.«168122_j39754217292616_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.SbnValue

open Cert.KernelIdeal Cert.KernelIdeal.Gen

variable {F : FTy → Type} [FloatOps F]

theorem zero_offsets : (![0, 0] : Fin 2 → Nat) = fun _ => 0 := funext fun a => by fin_cases a <;> rfl

/-- The slab of the staged activation rows the body loads at grid point `i`: all 512 rows, the 2048 columns that
    start at 2048 × the point's reduction coordinate. -/
def slab (i : grid0.Coords) (x0 : Vec F S512x4096 .f32) : Vec F S512x2048 .f32 :=
  View.ld x0 (Rect.unit (s := S512x4096) (k0_off1 i) S512x2048.size (k0_off1_inb i))

/-- At a point with reduction coordinate 0 the accumulator ends at zero block + this point's product. -/
theorem acc_first (c : Dev nD) (i : grid0.Coords) (arg3 : Memref sig .tc .vmem S512x4096 .f32) (harg3 : arg3.IsWhole) (arg4 : Memref sig .tc .vmem S1024x2048 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : cond0_0 i) (hc1 : ¬cond0_1 i)
    (x0 : Vec F S512x4096 .f32) (x1 : Vec F S1024x2048 .f32) (x2 : Vec F S1x1024 .f32) :
    sout0_A_0 c i arg3 harg3 arg4 harg4 arg5 harg5 arg6 harg6 arg7 harg7 hc0 hc1 x0 x1 x2
      = k0_pay2 (slab i x0) x1 k0_pay1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S512x1024) zero_offsets, View.readCov_unit_zero (S := S512x1024) _ zero_offsets]
  simp only [View.readAt_eq_ld, harg3.read_unread, harg4.read_unread, View.ld_unit_zero (S := S1024x2048) zero_offsets]
  rfl

/-- At a point with reduction coordinate 1 the accumulator ends at what the point before left + this point's product. -/
theorem acc_second (c : Dev nD) (i : grid0.Coords) (arg3 : Memref sig .tc .vmem S512x4096 .f32) (harg3 : arg3.IsWhole) (arg4 : Memref sig .tc .vmem S1024x2048 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : cond0_1 i)
    (x0 : Vec F S512x4096 .f32) (x1 : Vec F S1024x2048 .f32) (x2 : Vec F S1x1024 .f32) (xs0 : Vec F S512x1024 .f32) :
    sout0_B_0 c i arg3 harg3 arg4 harg4 arg5 harg5 arg6 harg6 arg7 harg7 hc0 hc1 x0 x1 x2 xs0
      = k0_pay2 (slab i x0) x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero zero_offsets]
  simp only [View.readAt_eq_ld, harg3.read_unread, harg4.read_unread, harg7.read_unread,
    View.ld_unit_zero (S := S1024x2048) zero_offsets, View.ld_unit_zero (S := S512x1024) zero_offsets]
  rfl

/-- … and the output block ends at that sum times the broadcast effective scale of the staged scale row. -/
theorem out_second (c : Dev nD) (i : grid0.Coords) (arg3 : Memref sig .tc .vmem S512x4096 .f32) (harg3 : arg3.IsWhole) (arg4 : Memref sig .tc .vmem S1024x2048 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : cond0_1 i)
    (x0 : Vec F S512x4096 .f32) (x1 : Vec F S1024x2048 .f32) (x2 : Vec F S1x1024 .f32) (xs0 : Vec F S512x1024 .f32) :
    out0_B_3 c i arg3 harg3 arg4 harg4 arg5 harg5 arg6 harg6 arg7 harg7 hc0 hc1 x0 x1 x2 xs0
      = k0_pay3 x2 (k0_pay2 (slab i x0) x1 xs0) := by
  unfold out0_B_3
  rw [View.read_writes_eq_canon _ _ _ (cover0_B_3 c i arg3 harg3 arg4 harg4 arg5 harg5 arg6 harg6 arg7 harg7 hc0 hc1 x0 x1 x2 xs0)]
  unfold kernelRun0_B
  dsimp only
  sl_unfold_words
  rw [View.canon_unit_zero zero_offsets, View.readCov_unit_zero (S := S512x1024) _ zero_offsets]
  simp only [View.readAt_eq_ld, harg3.read_unread, harg4.read_unread, harg5.read_unread, harg7.read_unread,
    View.ld_unit_zero (S := S1024x2048) zero_offsets, View.ld_unit_zero (S := S512x1024) zero_offsets,
    View.ld_unit_zero (S := S1x1024) zero_offsets]
  rfl

end Cert.KernelIdeal.SbnValue

end
-- ==== Proof.Spec.lean ====
/-
  The specification of a binarized linear layer with a rounded per-channel scale, and the laws that join its two
  programs.

  For an activation matrix x (1024 × 4096), a weight matrix w (4096 × 4096, one row per output channel) and a scale
  vector s (4096), the layer's entry (p, n) is

      ( ∑ k, x (p, k) · [w (n, k) > 0] ) · round (max (s n) 1),

  where [·] is 1 for a positive entry and 0 otherwise and round is to nearest, ties to even. Everything is read on
  the extended reals. One program takes the sum over the 4096 contracted positions in two halves of 2048, starting
  from zero; the other takes it whole, and multiplies by round (max (s n) 1) − s n + s n, which is the same factor
  when s n is a real number.
-/
import Idealize.ShloMosaic.PureOps.Ideal
import Idealize.ShloMosaic.PureOps.Ideal.Laws
import Idealize.ShloMosaic.Lib.ValueIdx
import Mathlib.Algebra.BigOperators.Fin

noncomputable section

open scoped BigOperators

namespace Cert.SbnSpec

open Idealize.ShloMosaic Idealize.ShloMosaic.ValueIdx

/-- The float literals 0.0 and 1.0, as the extended reals their words denote. -/
abbrev zeroF : EReal := Ideal.ofBits .f32 0x00000000#32
abbrev oneF : EReal := Ideal.ofBits .f32 0x3F800000#32

/-- The binarized weight: 1 where the entry is greater than zero, 0 elsewhere. -/
def bin (w : EReal) : EReal := (((Ideal.cmp .ogt w zeroF).toNat : ℝ) : EReal)

/-- The effective scale: the entry clamped below at 1, rounded to the nearest integer, ties to even. -/
def scale (s : EReal) : EReal := Ideal.liftRound Ideal.roundHalfEven (max s oneF)

/-- The layer's entry for row p of the activations and output channel n. -/
def entry (x : (⟨2, ![1024, 4096]⟩ : Shape).Idx → EReal) (w : (⟨2, ![4096, 4096]⟩ : Shape).Idx → EReal)
    (s : (⟨1, ![4096]⟩ : Shape).Idx → EReal) (p : Fin 1024) (n : Fin 4096) : EReal :=
  (∑ k : Fin 4096, x (ix2 p k) * bin (w (ix2 n k))) * scale (s (ix1 n))

/-- The layer, entry by entry. -/
def layer (x : (⟨2, ![1024, 4096]⟩ : Shape).Idx → EReal) (w : (⟨2, ![4096, 4096]⟩ : Shape).Idx → EReal)
    (s : (⟨1, ![4096]⟩ : Shape).Idx → EReal) : (⟨2, ![1024, 4096]⟩ : Shape).Idx → EReal :=
  fun i => entry x w s (i 0) (i 1)

theorem layer_ix2 (x : (⟨2, ![1024, 4096]⟩ : Shape).Idx → EReal) (w : (⟨2, ![4096, 4096]⟩ : Shape).Idx → EReal)
    (s : (⟨1, ![4096]⟩ : Shape).Idx → EReal) (p : Fin 1024) (n : Fin 4096) : layer x w s (ix2 p n) = entry x w s p n := rfl

/-- A one-bit word widened with zeros to 32 bits and read as a signed integer is the bit. -/
theorem toInt_setWidth_one (b : BitVec 1) : ((b.setWidth 32).toInt : ℝ) = (b.toNat : ℝ) := by
  have h : ∀ b : BitVec 1, (b.setWidth 32).toInt = (b.toNat : ℤ) := by decide
  rw [h b]; simp

/-- So the comparison's bit, widened and converted as a signed integer, is the binarized weight. -/
theorem bin_signed (w : EReal) :
    ((((Ideal.cmp .ogt w zeroF).setWidth 32).toInt : ℝ) : EReal) = bin w := by
  unfold bin; rw [toInt_setWidth_one]

/-- A sum over 4096 positions is the sum over the first 2048 plus the sum over the last 2048. -/
theorem sum_halves {β : Type*} [AddCommMonoid β] (f : Fin 4096 → β) :
    ∑ k : Fin 4096, f k = ∑ k : Fin 2048, f (Fin.castAdd 2048 k) + ∑ k : Fin 2048, f (Fin.natAdd 2048 k) :=
  Fin.sum_univ_add (a := 2048) (b := 2048) f

/-- The word of 1.0 denotes the real number 1. -/
theorem oneF_eq : oneF = ((1 : ℝ) : EReal) := by
  simp [oneF, Ideal.ofBits, Ideal.ieee, -EReal.coe_mul]; norm_num

/-- The effective scale of a real entry is a real number. -/
theorem scale_coe (r : ℝ) : scale (r : EReal) = (((Ideal.roundHalfEven (max r 1) : ℤ) : ℝ) : EReal) := by
  unfold scale
  rw [oneF_eq, show max (r : EReal) ((1 : ℝ) : EReal) = ((max r 1 : ℝ) : EReal) from
    (EReal.coe_strictMono.monotone.map_max).symm, Ideal.liftRound_coe]

/-- For a real entry, subtracting it from its effective scale and adding it back changes nothing. -/
theorem scale_sub_add (r : ℝ) : scale (r : EReal) - (r : EReal) + (r : EReal) = scale (r : EReal) := by
  rw [scale_coe, ← EReal.coe_sub, ← EReal.coe_add, sub_add_cancel]

end Cert.SbnSpec

end
-- ==== Proof.LibDotRows.lean ====
/-
  A reusable general lemma: a matrix product that contracts the COLUMNS of both operands, read at an entry.

  The product of an `n` × `K` matrix `l` with the transpose of an `M` × `K` matrix `r` (`l @ r.T`, a linear layer
  whose weight matrix is stored one row per output feature) pairs row `p` of `l` with row `c` of `r`. Its dimension
  numbers index the sum by the contraction shape's positions; when that shape has the one axis of extent `K` and the
  two operand indices at output entry (p, c) and contraction position `k` are (p, k) and (c, k) — four coordinate
  facts a program's literal dimension numbers decide — the sum is `∑ k : Fin K, l (p, k) · r (c, k)`. On the extended
  reals this reads a vector unit's matrix product into a zero accumulator. Stated at any extents.
-/
import Idealize.ShloMosaic.Lib.ValueIdx
import Idealize.ShloMosaic.PureOps.Ideal.Laws

noncomputable section

open scoped BigOperators

namespace Idealize.ShloMosaic.DotRows

open Idealize.ShloMosaic Idealize.ShloMosaic.ValueIdx

/-- The contraction's sum, re-indexed by the one contracted coordinate. -/
theorem sum_contr_eq {n K M : Nat} (D : DotDims (⟨2, ![n, K]⟩ : Shape) (⟨2, ![M, K]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (i 1).val)
    (r1 : ∀ (i : (⟨2, ![n, M]⟩ : Shape).Idx) (q : D.contr.Idx), (D.rhsIdx i q 1).val = (q ⟨0, by omega⟩).val)
    (l : (⟨2, ![n, K]⟩ : Shape).Idx → EReal) (r : (⟨2, ![M, K]⟩ : Shape).Idx → EReal) (p : Fin n) (c : Fin M) :
    ∑ q : D.contr.Idx, l (D.lhsIdx (ix2 p c) q) * r (D.rhsIdx (ix2 p c) q) = ∑ k : Fin K, l (ix2 p k) * r (ix2 c k) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 c k := funext fun a => Fin.ext (by
    match a with
    | ⟨0, _⟩ => exact r0 _ _
    | ⟨1, _⟩ => exact (r1 _ _).trans hk)
  rw [el, er]

/-- A vector unit's matrix product into the zero accumulator, at entry (p, c): `∑ k, lhs (p, k) · rhs (c, k)`. -/
theorem matmul_zero_apply {n K M : Nat} {φ₁ φ₂ : FTy}
    (D : DotDims (⟨2, ![n, K]⟩ : Shape) (⟨2, ![M, K]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (i 1).val)
    (r1 : ∀ (i : (⟨2, ![n, M]⟩ : Shape).Idx) (q : D.contr.Idx), (D.rhsIdx i q 1).val = (q ⟨0, by omega⟩).val)
    (prec : Option ContractPrecision) (lhs : FVec Ideal (⟨2, ![n, K]⟩ : Shape) φ₁) (rhs : FVec Ideal (⟨2, ![M, K]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 c k) : EReal) :=
  (Ideal.matmul_constant_zero_apply D prec lhs rhs (ix2 p c)).trans (sum_contr_eq D hr hs l0 l1 r0 r1 lhs rhs p c)

end Idealize.ShloMosaic.DotRows

end
-- ==== Proof.Payload.lean ====
/-
  The body's arithmetic read at an entry, on the extended reals.

  The accumulating step at entry (p, c) of the 512 × 1024 block is the accumulator's entry plus
  ∑ k < 2048, a (p, k) · [b (c, k) > 0] for the loaded activation slab a and weight block b: the changes of float
  format are the identity, the comparison's bit widened and converted is the binarized weight, and the matrix
  product into a zero accumulator pairs row p of the slab with row c of the weight block. The finishing step at
  (p, c) is the accumulator's entry times the effective scale of entry c of the staged scale row. The reset
  step stores the word of 0.0 everywhere.
-/
import proofs.«168122_j39754217292616_2_alg».proof.Proof.Gen.KernelIdeal.Skeleton
import proofs.«168122_j39754217292616_2_alg».proof.Proof.Spec
import proofs.«168122_j39754217292616_2_alg».proof.Proof.LibDotRows
import Idealize.ShloMosaic.Lib.Pipeline.Value
import Idealize.ShloMosaic.Lib.ValueIdx

noncomputable section

open scoped BigOperators
open Idealize.ShloMosaic Idealize.ShloMosaic.ValueIdx

namespace Cert.KernelIdeal.SbnValue

open Cert.KernelIdeal Cert.KernelIdeal.Gen Cert.SbnSpec

/-- The body's matrix product, by its full name. -/
abbrev bodyDot := dot_S512x2048_S1024x2048_S512x1024_1_1_0_0_n_n

theorem bodyDot_lhs0 (i : S512x1024.Idx) (q : bodyDot.contr.Idx) : (bodyDot.lhsIdx i q 0).val = (i 0).val := by
  unfold DotDims.lhsIdx
  rw [dif_neg (show ¬(0 : Fin S512x2048.rank) ∈ bodyDot.lhsBatch by decide), dif_pos (show (0 : Fin S512x2048.rank) ∈ bodyDot.lhsNonContracting by decide)]
  rfl
theorem bodyDot_lhs1 (i : S512x1024.Idx) (q : bodyDot.contr.Idx) : (bodyDot.lhsIdx i q 1).val = (q ⟨0, by decide⟩).val :=
  bodyDot.lhsIdx_val_of_single rfl i q
theorem bodyDot_rhs0 (i : S512x1024.Idx) (q : bodyDot.contr.Idx) : (bodyDot.rhsIdx i q 0).val = (i 1).val := by
  unfold DotDims.rhsIdx
  rw [dif_neg (show ¬(0 : Fin S1024x2048.rank) ∈ bodyDot.rhsBatch by decide), dif_pos (show (0 : Fin S1024x2048.rank) ∈ bodyDot.rhsNonContracting by decide)]
  rfl
theorem bodyDot_rhs1 (i : S512x1024.Idx) (q : bodyDot.contr.Idx) : (bodyDot.rhsIdx i q 1).val = (q ⟨0, by decide⟩).val :=
  bodyDot.rhsIdx_val_of_single rfl i q

/-- The reset step stores the word of 0.0 at every entry. -/
theorem reset_apply (j : S512x1024.Idx) : k0_pay1 (F := Ideal) j = zeroF := rfl

/-- The accumulating step at entry (p, c). -/
theorem accumulate_apply (a : FVec Ideal S512x2048 .f32) (b : FVec Ideal S1024x2048 .f32) (acc : FVec Ideal S512x1024 .f32)
    (p : Fin 512) (c : Fin 1024) :
    k0_pay2 (F := Ideal) a b acc (ix2 p c) = acc (ix2 p c) + ∑ k : Fin 2048, a (ix2 p k) * bin (b (ix2 c k)) := by
  unfold k0_pay2
  rw [shapeCast_self, addf_apply]
  refine congrArg (acc (ix2 p c) + ·) ?_
  refine (DotRows.matmul_zero_apply bodyDot rfl rfl bodyDot_lhs0 bodyDot_lhs1 bodyDot_rhs0 bodyDot_rhs1 none _ _ p c).trans ?_
  refine Finset.sum_congr rfl fun k _ => ?_
  exact congrArg (a (ix2 p k) * ·) (bin_signed (b (ix2 c k)))

/-- The finishing step at entry (p, c). -/
theorem finish_apply (s : FVec Ideal S1x1024 .f32) (acc : FVec Ideal S512x1024 .f32) (p : Fin 512) (c : Fin 1024) :
    k0_pay3 (F := Ideal) s acc (ix2 p c) = acc (ix2 p c) * scale (s (ix2 0 c)) := by
  unfold k0_pay3
  rw [mulf_apply]
  refine congrArg (acc (ix2 p c) * ·) ?_
  rw [broadcastTo_apply _ broadcasts_S1x1024_S512x1024 (ix2 p c) (ix2 (0 : Fin 1) c) (fun a => by
    match a with
    | ⟨0, _⟩ => rfl
    | ⟨1, _⟩ => rfl)]
  rw [shapeCast_self]
  rfl

/-- Both grid points of one output block together: resetting, accumulating the product of the first halves of a
    row of activations and a row of weights, accumulating the product of the second halves, and finishing with the
    effective scale gives the layer's entry — the sum over all 4096 positions is the sum of its halves, and the
    zero the accumulator starts from adds nothing. -/
theorem block_entry (X : S1024x4096.Idx → EReal) (W : S4096x4096.Idx → EReal) (S : S4096.Idx → EReal)
    (a0 a1 : FVec Ideal S512x2048 .f32) (b0 b1 : FVec Ideal S1024x2048 .f32) (s : FVec Ideal S1x1024 .f32)
    (p : Fin 512) (q : Fin 1024) (P : Fin 1024) (N : Fin 4096)
    (ha0 : ∀ k : Fin 2048, a0 (ix2 p k) = X (ix2 P (Fin.castAdd 2048 k)))
    (ha1 : ∀ k : Fin 2048, a1 (ix2 p k) = X (ix2 P (Fin.natAdd 2048 k)))
    (hb0 : ∀ k : Fin 2048, b0 (ix2 q k) = W (ix2 N (Fin.castAdd 2048 k)))
    (hb1 : ∀ k : Fin 2048, b1 (ix2 q k) = W (ix2 N (Fin.natAdd 2048 k)))
    (hs : s (ix2 0 q) = S (ix1 N)) :
    k0_pay3 (F := Ideal) s (k0_pay2 (F := Ideal) a1 b1 (k0_pay2 (F := Ideal) a0 b0 (k0_pay1 (F := Ideal)))) (ix2 p q)
      = entry X W S P N := by
  rw [finish_apply, accumulate_apply, accumulate_apply, reset_apply, hs]
  unfold entry
  rw [sum_halves]
  simp only [ha0, ha1, hb0, hb1]
  rw [show zeroF = 0 from Ideal.ofBits_zero_f32, zero_add]

end Cert.KernelIdeal.SbnValue

end
-- ==== Proof.Blocks.lean ====
/-
  What the grid points read, and what a writing point writes back.

  The grid has 16 points t = (i·4 + j)·2 + k: i < 2 picks 512 rows of the activations, j < 4 picks 1024 output
  channels, k < 2 picks 2048 of the 4096 contracted positions. At point t the activation window holds rows
  512·(t/8) …, all columns, and the body loads its columns 2048·(t%2) …; the weight window holds rows
  1024·(t/2%4) … and columns 2048·(t%2) …; the scale window holds columns 1024·(t/2%4) … of the scale vector laid
  out as one row. Only the odd points write the output block (rows 512·(t/8) …, columns 1024·(t/2%4) …) back, and
  what an odd point t writes is the finishing step over the accumulation of point t over the accumulation of
  point t − 1 over the reset — entry by entry the layer.
-/
import proofs.«168122_j39754217292616_2_alg».proof.Proof.Gen.KernelIdeal.Value
import proofs.«168122_j39754217292616_2_alg».proof.Proof.Pieces
import proofs.«168122_j39754217292616_2_alg».proof.Proof.Payload
import Idealize.ShloMosaic.Lib.ValueLayout
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.SbnValue

open Cert.KernelIdeal Cert.KernelIdeal.Gen Cert.SbnSpec

variable (m : (ℓ : Loc nD τ sig) → Buf (Elt Ideal) ℓ) (ρ : Dev nD → PrngReg)

/-- The printed index maps and the reduction coordinate, in closed form, decided over the 16 points. -/
theorem index_facts : ∀ t : Fin cfg0.N,
    win0_0.index t (0 : Fin 2) = t.val / 8 ∧ win0_0.index t (1 : Fin 2) = 0
    ∧ win0_1.index t (0 : Fin 2) = t.val / 2 % 4 ∧ win0_1.index t (1 : Fin 2) = t.val % 2
    ∧ win0_2.index t (0 : Fin 2) = 0 ∧ win0_2.index t (1 : Fin 2) = t.val / 2 % 4
    ∧ win0_3.index t (0 : Fin 2) = t.val / 8 ∧ win0_3.index t (1 : Fin 2) = t.val / 2 % 4
    ∧ (grid0.coords t 2).val = t.val % 2 :=
  (by decide +kernel : ∀ t : Fin grid0.N, _)

/-- The loaded slab at (p, k) is the staged activation block at (p, 2048·(reduction coordinate) + k). -/
theorem slab_apply (i : grid0.Coords) (x0 : Vec Ideal S512x4096 .f32) (p : Fin 512) (k : Fin 2048) (k' : Fin 4096)
    (hk : k'.val = 2048 * (i 2).val + k.val) : slab i x0 (ix2 p k) = x0 (ix2 p k') := by
  unfold slab
  show x0 _ = x0 (ix2 p k')
  refine congrArg x0 (funext fun a => Fin.ext ?_)
  match a with
  | ⟨0, _⟩ => show k0_off1 i 0 + 1 * p.val = p.val; rw [k0_off1_eq i]; show 0 + 1 * p.val = p.val; omega
  | ⟨1, _⟩ => show k0_off1 i 1 + 1 * k.val = k'.val; rw [k0_off1_eq i, hk]; show 2048 * (i 2).val + 1 * k.val = _; omega

/-- The activation window at point t, entry (p, k), is the activation matrix at row 512·(t/8) + p, column k. -/
theorem x_block (c : Dev nD) (t : Fin cfg0.N) (p : Fin 512) (k : Fin 4096) (P : Fin 1024)
    (hP : P.val = t.val / 8 * 512 + p.val) :
    iblk m c 0 t (ix2 p k) = V m c main_arg0 (ix2 P k) := by
  obtain ⟨f0, f1, -⟩ := index_facts t
  show V m c main_arg0 (((cfg0.win 0).blk t).view.emb (ix2 p k)) = V m c main_arg0 (ix2 P k)
  refine congrArg _ (funext fun a => Fin.ext ?_)
  match a with
  | ⟨0, _⟩ => show win0_0.index t (0 : Fin 2) * 512 + 1 * p.val = P.val; rw [f0, hP]; omega
  | ⟨1, _⟩ => show win0_0.index t (1 : Fin 2) * 4096 + 1 * k.val = k.val; rw [f1]; omega

/-- The weight window at point t, entry (q, k), is the weight matrix at row 1024·(t/2%4) + q, column 2048·(t%2) + k. -/
theorem w_block (c : Dev nD) (t : Fin cfg0.N) (q : Fin 1024) (k : Fin 2048) (N : Fin 4096) (k' : Fin 4096)
    (hN : N.val = t.val / 2 % 4 * 1024 + q.val) (hk : k'.val = t.val % 2 * 2048 + k.val) :
    iblk m c 1 t (ix2 q k) = V m c main_arg1 (ix2 N k') := by
  obtain ⟨-, -, f0, f1, -⟩ := index_facts t
  show V m c main_arg1 (((cfg0.win 1).blk t).view.emb (ix2 q k)) = V m c main_arg1 (ix2 N k')
  refine congrArg _ (funext fun a => Fin.ext ?_)
  match a with
  | ⟨0, _⟩ => show win0_1.index t (0 : Fin 2) * 1024 + 1 * q.val = N.val; rw [f0, hN]; omega
  | ⟨1, _⟩ => show win0_1.index t (1 : Fin 2) * 2048 + 1 * k.val = k'.val; rw [f1, hk]; omega

/-- The scale vector laid out as one row, as the region finds it. -/
theorem scale_row (c : Dev nD) (N : Fin 4096) :
    V m c main_v0 (ix2 (0 : Fin 1) N) = m ((c : Thread nD τ).loc main_arg2) (ix1 N) := by
  have e : (V m c main_v0 : S1x4096.Idx → EReal)
      = shapeCast S1x4096 (m ((c : Thread nD τ).loc main_arg2)) shapeCasts_S4096_S1x4096 := by
    dsimp only [Gen.V, Gen.hostOps0]; after_results; rfl
  rw [e]
  exact shapeCast_a_1a_apply _ _ 0 N

/-- The scale window at point t, entry (0, q), is the scale vector at 1024·(t/2%4) + q. -/
theorem s_block (c : Dev nD) (t : Fin cfg0.N) (q : Fin 1024) (N : Fin 4096)
    (hN : N.val = t.val / 2 % 4 * 1024 + q.val) :
    iblk m c 2 t (ix2 (0 : Fin 1) q) = m ((c : Thread nD τ).loc main_arg2) (ix1 N) := by
  obtain ⟨-, -, -, -, f0, f1, -⟩ := index_facts t
  refine Eq.trans ?_ (scale_row m c N)
  show V m c main_v0 (((cfg0.win 2).blk t).view.emb (ix2 (0 : Fin 1) q)) = V m c main_v0 (ix2 (0 : Fin 1) N)
  refine congrArg _ (funext fun a => Fin.ext ?_)
  match a with
  | ⟨0, _⟩ => show win0_2.index t (0 : Fin 2) * 1 + 1 * 0 = 0; rw [f0]
  | ⟨1, _⟩ => show win0_2.index t (1 : Fin 2) * 1024 + 1 * q.val = N.val; rw [f1, hN]; omega

/-- After a point with reduction coordinate 0 the accumulator holds reset + that point's product. -/
theorem acc_after_first (c : Dev nD) (t : Fin cfg0.N) (h0 : t.val % 2 = 0) (h1 : ¬t.val % 2 = 1) :
    (outsAt0 m c t.val t.isLt).2
      = k0_pay2 (slab (grid0.coords t) (iblk m c 0 t)) (iblk m c 1 t) (k0_pay1 (F := Ideal)) := by
  rw [outsAt0_A m c t h0 h1]
  dsimp only
  exact acc_first (F := Ideal) c (grid0.coords t) (ms0_0 t) (hs0_0 t) (ms0_1 t) (hs0_1 t) (ms0_2 t) (hs0_2 t) (ms0_3 t) (hs0_3 t) scM0_0
    (Memref.isWhole_whole _) ((hcond0_0 t).mpr h0) (fun h => h1 ((hcond0_1 t).mp h)) (iblk m c 0 t) (iblk m c 1 t) (iblk m c 2 t)

/-- After a point with reduction coordinate 1 the output block holds the finishing step over that point's
    accumulation over what the point before left. -/
theorem out_after_second (c : Dev nD) (t : Fin cfg0.N) (h0 : ¬t.val % 2 = 0) (h1 : t.val % 2 = 1) :
    (outsAt0 m c t.val t.isLt).1
      = k0_pay3 (iblk m c 2 t) (k0_pay2 (slab (grid0.coords t) (iblk m c 0 t)) (iblk m c 1 t)
          (outsAt0 m c (t.val - 1) (Nat.lt_of_le_of_lt (Nat.sub_le _ _) t.isLt)).2) := by
  rw [outsAt0_B m c t h0 h1]
  dsimp only
  exact out_second (F := Ideal) c (grid0.coords t) (ms0_0 t) (hs0_0 t) (ms0_1 t) (hs0_1 t) (ms0_2 t) (hs0_2 t) (ms0_3 t) (hs0_3 t) scM0_0
    (Memref.isWhole_whole _) (fun h => h0 ((hcond0_0 t).mp h)) ((hcond0_1 t).mpr h1) (iblk m c 0 t) (iblk m c 1 t) (iblk m c 2 t)
    (outsAt0 m c (t.val - 1) (Nat.lt_of_le_of_lt (Nat.sub_le _ _) t.isLt)).2

end Cert.KernelIdeal.SbnValue

end
-- ==== Proof.Final.lean ====
/-
  The output array after the run is the layer.

  An odd point t = (i·4 + j)·2 + 1 writes back the block of rows 512·i … and columns 1024·j …; entry (p, q) of what
  it writes is the layer's entry (512·i + p, 1024·j + q): the two accumulating steps read row 512·i + p of the
  activations against row 1024·j + q of the weights, first over positions k, then over positions 2048 + k, and the
  finishing step reads the scale vector at 1024·j + q. Every index (r, n) of the array lies in the block of the odd
  point with i = r / 512 and j = n / 1024, so the array ends holding the layer everywhere.
-/
import proofs.«168122_j39754217292616_2_alg».proof.Proof.Blocks

noncomputable section

open scoped BigOperators
open Idealize.ShloMosaic Idealize.ShloMosaic.TcCoe Idealize.SL.Sem Idealize.ShloMosaic.ValueIdx
open Idealize.ShloMosaic.Pipeline (Dat)

namespace Cert.KernelIdeal.SbnValue

open Cert.KernelIdeal Cert.KernelIdeal.Gen Cert.SbnSpec

variable (m : (ℓ : Loc nD τ sig) → Buf (Elt Ideal) ℓ) (ρ : Dev nD → PrngReg)

/-- The layer of the argument arrays as the region finds them. -/
abbrev result (c : Dev nD) : Buf (Elt Ideal) ((c : Thread nD τ).loc main_v1) :=
  layer (V m c main_arg0) (V m c main_arg1) (m ((c : Thread nD τ).loc main_arg2))

/-- … which are the argument arrays as launched. -/
theorem result_eq (c : Dev nD) : result m c
    = layer (m ((c : Thread nD τ).loc main_arg0)) (m ((c : Thread nD τ).loc main_arg1)) (m ((c : Thread nD τ).loc main_arg2)) := by
  unfold result
  rw [V_main_arg0 m c, V_main_arg1 m c]

/-- What a writing point writes back is its block of the layer. -/
theorem flushed_eq (c : Dev nD) (t : Fin cfg0.N) (hf : (cfg0.win 3).flush t = true) :
    (dats m 0 c).flushed 3 t = ((cfg0.win 3).blk t).view.read (Elt Ideal) (result m c) := by
  have h1 : t.val % 2 = 1 := (flush0_3 t).mp hf
  have h0 : ¬t.val % 2 = 0 := by omega
  have hN : t.val < 16 := lt_of_lt_of_eq t.isLt N_0
  have hlt : t.val - 1 < cfg0.N := Nat.lt_of_le_of_lt (Nat.sub_le _ _) t.isLt
  obtain ⟨-, -, -, -, -, -, g0, g1, gk⟩ := index_facts t
  obtain ⟨-, -, -, -, -, -, -, -, gk'⟩ := index_facts ⟨t.val - 1, hlt⟩
  have gk'' : (grid0.coords ⟨t.val - 1, hlt⟩ 2).val = (t.val - 1) % 2 := gk'
  rw [Value.flushed3, out_after_second m c t h0 h1,
    show (outsAt0 m c (t.val - 1) hlt).2 = _ from
      acc_after_first m c ⟨t.val - 1, hlt⟩ (by show (t.val - 1) % 2 = 0; omega) (by show ¬(t.val - 1) % 2 = 1; omega)]
  funext y
  obtain ⟨p, q, rfl⟩ : ∃ (p : Fin 512) (q : Fin 1024), y = ix2 p q := ⟨y 0, y 1, eq_ix2 y⟩
  have hp : p.val < 512 := p.isLt
  have hq : q.val < 1024 := q.isLt
  have hP : t.val / 8 * 512 + p.val < 1024 := by omega
  have hQ : t.val / 2 % 4 * 1024 + q.val < 4096 := by omega
  have hi : ((cfg0.win 3).blk t).view.emb (ix2 p q)
      = ix2 (⟨t.val / 8 * 512 + p.val, hP⟩ : Fin 1024) (⟨t.val / 2 % 4 * 1024 + q.val, hQ⟩ : Fin 4096) :=
    funext fun a => Fin.ext (by
      match a with
      | ⟨0, _⟩ => show win0_3.index t (0 : Fin 2) * 512 + 1 * p.val = t.val / 8 * 512 + p.val; rw [g0]; omega
      | ⟨1, _⟩ => show win0_3.index t (1 : Fin 2) * 1024 + 1 * q.val = t.val / 2 % 4 * 1024 + q.val; rw [g1]; omega)
  show k0_pay3 (F := Ideal) (iblk m c 2 t) (k0_pay2 (F := Ideal) (slab (grid0.coords t) (iblk m c 0 t)) (iblk m c 1 t)
      (k0_pay2 (F := Ideal) (slab (grid0.coords ⟨t.val - 1, hlt⟩) (iblk m c 0 ⟨t.val - 1, hlt⟩)) (iblk m c 1 ⟨t.val - 1, hlt⟩)
        (k0_pay1 (F := Ideal)))) (ix2 p q)
    = result m c (((cfg0.win 3).blk t).view.emb (ix2 p q))
  rw [hi]
  refine (block_entry (V m c main_arg0) (V m c main_arg1) (m ((c : Thread nD τ).loc main_arg2))
    (slab (grid0.coords ⟨t.val - 1, hlt⟩) (iblk m c 0 ⟨t.val - 1, hlt⟩)) (slab (grid0.coords t) (iblk m c 0 t))
    (iblk m c 1 ⟨t.val - 1, hlt⟩) (iblk m c 1 t) (iblk m c 2 t) p q ⟨t.val / 8 * 512 + p.val, hP⟩ ⟨t.val / 2 % 4 * 1024 + q.val, hQ⟩
    ?_ ?_ ?_ ?_ ?_).trans (layer_ix2 _ _ _ _ _).symm
  · intro k
    have hk : k.val < 2048 := k.isLt
    exact (slab_apply (grid0.coords ⟨t.val - 1, hlt⟩) (iblk m c 0 ⟨t.val - 1, hlt⟩) p k (Fin.castAdd 2048 k)
      (by show k.val = 2048 * (grid0.coords ⟨t.val - 1, hlt⟩ 2).val + k.val; rw [gk'']; omega)).trans
      (x_block m c ⟨t.val - 1, hlt⟩ p (Fin.castAdd 2048 k) ⟨t.val / 8 * 512 + p.val, hP⟩
        (by show t.val / 8 * 512 + p.val = (t.val - 1) / 8 * 512 + p.val; omega))
  · intro k
    have hk : k.val < 2048 := k.isLt
    exact (slab_apply (grid0.coords t) (iblk m c 0 t) p k (Fin.natAdd 2048 k)
      (by show 2048 + k.val = 2048 * (grid0.coords t 2).val + k.val; rw [gk]; omega)).trans
      (x_block m c t p (Fin.natAdd 2048 k) ⟨t.val / 8 * 512 + p.val, hP⟩ rfl)
  · intro k
    have hk : k.val < 2048 := k.isLt
    exact w_block m c ⟨t.val - 1, hlt⟩ q k ⟨t.val / 2 % 4 * 1024 + q.val, hQ⟩ (Fin.castAdd 2048 k)
      (by show t.val / 2 % 4 * 1024 + q.val = (t.val - 1) / 2 % 4 * 1024 + q.val; omega)
      (by show k.val = (t.val - 1) % 2 * 2048 + k.val; omega)
  · intro k
    have hk : k.val < 2048 := k.isLt
    exact w_block m c t q k ⟨t.val / 2 % 4 * 1024 + q.val, hQ⟩ (Fin.natAdd 2048 k) rfl
      (by show 2048 + k.val = t.val % 2 * 2048 + k.val; omega)
  · exact s_block m c t q ⟨t.val / 2 % 4 * 1024 + q.val, hQ⟩ rfl

/-- An index of the array is in point t's output block iff each coordinate is in the block's range on its axis. -/
theorem mem_block (t : Fin cfg0.N) (i : S1024x4096.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v1).slice (win0_3.rect t)).set ↔ _
  rw [View.set_slice_whole, Rect.mem_set_unit]
  exact Iff.rfl

/-- Every index lies in the block of a writing point. -/
theorem covered (i : S1024x4096.Idx) :
    ∃ t : Fin cfg0.N, (cfg0.win 3).flush t = true ∧ i ∈ ((cfg0.win 3).blk t).view.set := by
  have hi0 : (i 0).val < 1024 := (i 0).isLt
  have hi1 : (i 1).val < 4096 := (i 1).isLt
  have hN : cfg0.N = 16 := N_0
  obtain ⟨tv, htv⟩ : ∃ tv, tv = ((i 0).val / 512 * 4 + (i 1).val / 1024) * 2 + 1 := ⟨_, rfl⟩
  have hb : tv < cfg0.N := by rw [hN]; omega
  obtain ⟨-, -, -, -, -, -, g0, g1, -⟩ := index_facts ⟨tv, hb⟩
  have g0' : win0_3.index ⟨tv, hb⟩ (0 : Fin 2) = tv / 8 := g0
  have g1' : win0_3.index ⟨tv, hb⟩ (1 : Fin 2) = tv / 2 % 4 := g1
  refine ⟨⟨tv, hb⟩, (flush0_3 _).mpr (by show tv % 2 = 1; omega), ?_⟩
  rw [mem_block]
  intro a
  match a with
  | ⟨0, _⟩ =>
    show win0_3.index ⟨tv, hb⟩ (0 : Fin 2) * 512 ≤ (i 0).val ∧ (i 0).val < win0_3.index ⟨tv, hb⟩ (0 : Fin 2) * 512 + 512
    rw [g0']; omega
  | ⟨1, _⟩ =>
    show win0_3.index ⟨tv, hb⟩ (1 : Fin 2) * 1024 ≤ (i 1).val ∧ (i 1).val < win0_3.index ⟨tv, hb⟩ (1 : Fin 2) * 1024 + 1024
    rw [g1']; omega

/-- The output array after the run. -/
theorem final (c : Dev nD) : (dats m 0 c).arrAt 3 cfg0.N = result m c :=
  (dats m 0 c).arrAt_eq_of_cover 3 (result m c) (flushed_eq m c) covered

/-- The run, read: the output array ends at the layer of the arguments, which end unchanged. -/
theorem run : θ_run defs (onTc (τ := τ) (main (F := Ideal))) ⟨m, fun _ => 0, ρ⟩ fun r => ∀ c : Dev nD,
      r.2.mem ((c : Thread nD τ).loc main_v1)
        = layer (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (result_eq m c)), (h c).2⟩)
    (Cert.KernelIdeal.Value.run_blocks m ρ)

end Cert.KernelIdeal.SbnValue

end
-- ==== Proof.RefLayer.lean ====
/-
  The reference program computes the layer.

  Read one operation at a time, its result at entry (p, n) is the whole contraction
  ∑ k < 4096, x (p, k) · [w (n, k) > 0] times round (max 1 (s n)) − s n + s n. The comparison's bit converted as an
  unsigned integer is the binarized weight; the maximum does not depend on the order of its operands; and for a
  real s n the subtraction and addition cancel, leaving the effective scale.
-/
import proofs.«168122_j39754217292616_2_alg».proof.Proof.Gen.ReferenceIdeal.Read
import proofs.«168122_j39754217292616_2_alg».proof.Proof.Spec

noncomputable section

open scoped BigOperators
open Idealize.ShloMosaic Idealize.ShloMosaic.ValueIdx

namespace Cert.ReferenceIdeal.SbnValue

open Cert.ReferenceIdeal Cert.ReferenceIdeal.Gen Cert.ReferenceIdeal.Read Cert.SbnSpec

/-- The host's comparison with zero, converted as an unsigned integer, is the binarized weight. -/
theorem bin_host (w : EReal) :
    FloatOps.uitofp (F := Ideal) .f32 (FloatOps.cmpf (F := Ideal) (φ := .f32) .ogt w (FloatOps.ofBits .f32 0x00000000#32)) = bin w := rfl

/-- For a real entry r, round (max 1 r) − r + r is the effective scale of r. -/
theorem scale_host (r : ℝ) :
    FloatOps.addf (F := Ideal) (φ := .f32) (FloatOps.subf (FloatOps.hostUnary .roundeven
      (FloatOps.maximumf (FloatOps.ofBits .f32 0x3F800000#32) (r : EReal))) (r : EReal)) (r : EReal) = scale (r : EReal) := by
  show Ideal.liftRound Ideal.roundHalfEven (max oneF (r : EReal)) - (r : EReal) + (r : EReal) = _
  rw [max_comm]
  exact scale_sub_add r

/-- The left operand of the contraction at entry (p, n) and position k is x (p, k); the right is the binarized w (n, k). -/
theorem lidx_eq (p : Fin 1024) (n : Fin 4096) (k : Fin 4096) : lidx_main_v3 (ix2 p n) k = ix2 p k :=
  funext fun a => by match a with | ⟨0, _⟩ => rfl | ⟨1, _⟩ => rfl
theorem ridx_eq (p : Fin 1024) (n : Fin 4096) (k : Fin 4096) : ridx_main_v3 (ix2 p n) k = ix2 n k :=
  funext fun a => by match a with | ⟨0, _⟩ => rfl | ⟨1, _⟩ => rfl
/-- The scale row spread over the rows reads the scale vector at the column. -/
theorem sidx_eq (p : Fin 1024) (n : Fin 4096) : idx_main_v8 (idx_main_v9 (ix2 p n)) = ix1 n :=
  funext fun a => by match a with | ⟨0, _⟩ => rfl

/-- The reference's result is the layer, when every scale entry is a real number. -/
theorem reference_eq (x0 : S1024x4096.Idx → EReal) (x1 : S4096x4096.Idx → EReal) (x2 : S4096.Idx → EReal)
    (hfin : ∀ n : Fin 4096, ∃ r : ℝ, x2 (ix1 n) = (r : EReal)) :
    val_main_v10 (F := Ideal) x0 x1 x2 = layer x0 x1 x2 := by
  funext i
  obtain ⟨p, n, rfl⟩ : ∃ (p : Fin 1024) (n : Fin 4096), i = ix2 p n := ⟨i 0, i 1, eq_ix2 i⟩
  obtain ⟨r, hr⟩ := hfin n
  rw [layer_ix2, val_main_v10_apply, val_main_v3_apply, val_main_v9_apply, val_main_v8_apply, val_main_v7_apply, val_main_v6_apply,
    val_main_v5_apply, val_main_v4_apply, val_main_call0_v1_apply, val_main_call0_v0_apply, val_main_cst_0_apply, sidx_eq, hr,
    scale_host r]
  unfold entry
  rw [hr]
  refine congrArg (· * scale (r : EReal)) ?_
  refine Finset.sum_congr rfl fun k _ => ?_
  rw [lidx_eq, ridx_eq, val_main_v2_apply, val_main_v1_apply, val_main_v0_apply, val_main_cst_apply]
  rfl

end Cert.ReferenceIdeal.SbnValue

end
-- ==== Proof.FiniteScale.lean ====
/-
  From the precondition to real scale entries.

  The precondition says that every entry of each input has absolute value below +∞. For the scale vector this
  makes every entry a real number: an extended real x with max x (−x) < ⊤ is neither ⊤ nor ⊥.
-/
import proofs.«168122_j39754217292616_2_alg».proof.Pre_finite_inputs
import Idealize.ShloMosaic.PureOps.Ideal
import Idealize.ShloMosaic.Lib.ReduceAll
import Idealize.ShloMosaic.Lib.ValueIdx

noncomputable section

open Idealize.ShloMosaic Idealize.ShloMosaic.ValueIdx

namespace Cert.FiniteScale

open Cert.Pre_finite_inputs

instance : Subsingleton S_.Idx := ⟨fun a b => funext fun d => d.elim0⟩

/-- The word 0x7F800000 denotes +∞. -/
theorem inf_eq : Ideal.ofBits .f32 0x7F800000#32 = (⊤ : EReal) := by
  simp [Ideal.ofBits, Ideal.ieee]

/-- An extended real whose absolute value compares below +∞ is a real number. -/
theorem real_of_abs_lt (x : EReal)
    (h : Ideal.cmp .olt (max x (-x)) (Ideal.ofBits .f32 0x7F800000#32) = 1#1) : ∃ r : ℝ, x = (r : EReal) := by
  rw [inf_eq] at h
  have hlt : max x (-x) < ⊤ := by
    by_contra hn
    simp [Ideal.cmp, hn] at h
  induction x using EReal.rec with
  | bot => simp at hlt
  | coe r => exact ⟨r, rfl⟩
  | top => simp at hlt

/-- Under the precondition every entry of the scale vector is a real number. -/
theorem scale_real [Facts] (a0 : FVec Ideal S1024x4096 .f32) (a1 : FVec Ideal S4096x4096 .f32) (a2 : FVec Ideal S4096 .f32)
    (h : fn (F := Ideal) a0 a1 a2 = fun _ => 1#1) (n : Fin 4096) : ∃ r : ℝ, a2 (ix1 n) = (r : EReal) := by
  have h' := congrFun h ix0
  dsimp only [fn] at h'
  obtain ⟨-, hC⟩ := IntOp.andi_eq_one.1 h'
  have e := Host.reduce_andi_all _ _ _ _ _ hC (ix1 n)
  exact real_of_abs_lt _ e

end Cert.FiniteScale

end
-- ==== Proof.lean ====
/-
  A binarized linear layer with a rounded per-channel scale: the kernel against its reference, on the extended reals.

  Both programs compute, for activations x (1024 × 4096), weights w (4096 × 4096, one row per output channel) and a
  scale vector s (4096),

      out (p, n) = ( ∑ k, x (p, k) · [w (n, k) > 0] ) · round (max (s n) 1).

  The kernel walks a grid of 2 × 4 × 2 points. For each block of 512 rows and 1024 output channels it resets an
  accumulator, adds the product over the first 2048 contracted positions, adds the product over the last 2048, and
  writes accumulator × round (max s 1) back; its changes of float format are the identity on the extended reals and
  its zero-extended, signed conversion of the comparison's bit is the bit. The reference takes the contraction whole
  and multiplies by round (max 1 s) − s + s. The two agree because a sum over 4096 positions is the sum of its
  halves, zero adds nothing, the maximum is symmetric, and − s + s cancels for a real s — the one place the
  precondition (every input entry finite) is used. The three frames are the generated frame runs; the ideal pass
  rewrote nothing, so the kernel's idealization is its own text.
-/
import proofs.«168122_j39754217292616_2_alg».proof.Defs
import proofs.«168122_j39754217292616_2_alg».proof.Proof.Gen.Kernel
import proofs.«168122_j39754217292616_2_alg».proof.Proof.Gen.Kernel.Skeleton
import proofs.«168122_j39754217292616_2_alg».proof.Proof.Gen.Kernel.Launch
import proofs.«168122_j39754217292616_2_alg».proof.Proof.Gen.Kernel.Points
import proofs.«168122_j39754217292616_2_alg».proof.Proof.Gen.Kernel.Frame
import proofs.«168122_j39754217292616_2_alg».proof.Proof.Gen.KernelIdeal
import proofs.«168122_j39754217292616_2_alg».proof.Proof.Gen.KernelIdeal.Skeleton
import proofs.«168122_j39754217292616_2_alg».proof.Proof.Gen.KernelIdeal.Launch
import proofs.«168122_j39754217292616_2_alg».proof.Proof.Gen.KernelIdeal.Points
import proofs.«168122_j39754217292616_2_alg».proof.Proof.Gen.KernelIdeal.Frame
import proofs.«168122_j39754217292616_2_alg».proof.Proof.Gen.ReferenceIdeal
import proofs.«168122_j39754217292616_2_alg».proof.Proof.Gen.Pre_finite_inputs
import proofs.«168122_j39754217292616_2_alg».proof.Proof.Gen.KernelIdeal.Value
import proofs.«168122_j39754217292616_2_alg».proof.Proof.Gen.ReferenceIdeal.Run
import proofs.«168122_j39754217292616_2_alg».proof.Proof.Gen.ReferenceIdeal.Read
import proofs.«168122_j39754217292616_2_alg».proof.Proof.Final
import proofs.«168122_j39754217292616_2_alg».proof.Proof.RefLayer
import proofs.«168122_j39754217292616_2_alg».proof.Proof.FiniteScale
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- The reference's run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- The kernel's output array ends at the layer of its arguments; the reference's result is the layer of arguments
    that agree with them, the scale entries being real by the precondition. -/
theorem algebraic : Cert.algebraic_KernelIdeal_ReferenceIdeal := by
  intro m ρ m' ρ' hpre hagree
  refine ⟨fun c => Cert.SbnSpec.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.SbnValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v10_eq _ _ _).trans ?_
  rw [(hagree c).1, (hagree c).2.1, (hagree c).2.2]
  exact Cert.ReferenceIdeal.SbnValue.reference_eq _ _ _ (fun n => Cert.FiniteScale.scale_real _ _ _ (hpre c) n)

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
